-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : IVec S2x640000 32) (main_arg2 : FVec F S128x128 .f32) (main_arg3 : FVec F S128 .f32) (main_arg4 : FVec F S128x128 .f32) (main_arg5 : FVec F S64x128 .f32) (main_arg6 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S128x64 : Shape := ⟨2, ![128, 64]⟩
abbrev S1x128 : Shape := ⟨2, ![1, 128]⟩
abbrev S1x64 : Shape := ⟨2, ![1, 64]⟩
abbrev S10000x64 : Shape := ⟨2, ![10000, 64]⟩
abbrev S1000x128 : Shape := ⟨2, ![1000, 128]⟩
abbrev S1000x64 : Shape := ⟨2, ![1000, 64]⟩

abbrev nBuf : Space → Nat
  | .hbm => 42
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .f32⟩
  | .hbm, ⟨21, _⟩ => ⟨S10000x128, .f32⟩
  | .hbm, ⟨22, _⟩ => ⟨S640000x1, .i32⟩
  | .hbm, ⟨23, _⟩ => ⟨S10000x128, .f32⟩
  | .hbm, ⟨24, _⟩ => ⟨S_, .f32⟩
  | .hbm, ⟨25, _⟩ => ⟨S640000, .f32⟩
  | .hbm, ⟨26, _⟩ => ⟨S_, .f32⟩
  | .hbm, ⟨27, _⟩ => ⟨S10000, .f32⟩
  | .hbm, ⟨28, _⟩ => ⟨S640000x1, .i32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S10000x128, .f32⟩
  | .hbm, ⟨35, _⟩ => ⟨S10000x128, .f32⟩
  | .hbm, ⟨36, _⟩ => ⟨S128x128, .f32⟩
  | .hbm, ⟨37, _⟩ => ⟨S128x128, .f32⟩
  | .hbm, ⟨38, _⟩ => ⟨S128x64, .f32⟩
  | .hbm, ⟨39, _⟩ => ⟨S1x128, .f32⟩
  | .hbm, ⟨40, _⟩ => ⟨S1x64, .f32⟩
  | .hbm, ⟨41, _⟩ => ⟨S10000x64, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x64, .f32⟩
  | .local _ .vmem, ⟨8, _⟩ => ⟨S1x64, .f32⟩
  | .local _ .vmem, ⟨9, _⟩ => ⟨S1000x64, .f32⟩
  | .local _ .vmem, ⟨10, _⟩ => ⟨S1000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  transposes_S64x128_S128x64_1_0 : S64x128.Transposes [1, 0] S128x64
  shapeCasts_S128_S1x128 : S128.ShapeCasts S1x128
  shapeCasts_S64_S1x64 : S64.ShapeCasts S1x64
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x64.size a ≤ S10000x64.size a
  hwx0_7 : ∀ i : grid0.Coords, EltTy.bits .f32 = 32 ∨ (Rect.block (s := S10000x64) S1000x64.size (cc0_transform_7 i) (hinb0_7 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_v22) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩
abbrev S128x64 : Shape := ⟨2, ![128, 64]⟩
abbrev S10000x64 : Shape := ⟨2, ![10000, 64]⟩
abbrev S1x64 : Shape := ⟨2, ![1, 64]⟩

abbrev nBuf : Space → Nat
  | .hbm => 52
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .f32⟩
  | .hbm, ⟨21, _⟩ => ⟨S10000x128, .f32⟩
  | .hbm, ⟨22, _⟩ => ⟨S640000x1, .i32⟩
  | .hbm, ⟨23, _⟩ => ⟨S10000x128, .f32⟩
  | .hbm, ⟨24, _⟩ => ⟨S_, .f32⟩
  | .hbm, ⟨25, _⟩ => ⟨S640000, .f32⟩
  | .hbm, ⟨26, _⟩ => ⟨S_, .f32⟩
  | .hbm, ⟨27, _⟩ => ⟨S10000, .f32⟩
  | .hbm, ⟨28, _⟩ => ⟨S640000x1, .i32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S10000x128, .f32⟩
  | .hbm, ⟨35, _⟩ => ⟨S10000x128, .f32⟩
  | .hbm, ⟨36, _⟩ => ⟨S128x128, .f32⟩
  | .hbm, ⟨37, _⟩ => ⟨S10000x128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S128x128, .f32⟩
  | .hbm, ⟨42, _⟩ => ⟨S10000x128, .f32⟩
  | .hbm, ⟨43, _⟩ => ⟨S10000x128, .f32⟩
  | .hbm, ⟨44, _⟩ => ⟨S_, .f32⟩
  | .hbm, ⟨45, _⟩ => ⟨S10000x128, .f32⟩
  | .hbm, ⟨46, _⟩ => ⟨S10000x128, .f32⟩
  | .hbm, ⟨47, _⟩ => ⟨S128x64, .f32⟩
  | .hbm, ⟨48, _⟩ => ⟨S10000x64, .f32⟩
  | .hbm, ⟨49, _⟩ => ⟨S1x64, .f32⟩
  | .hbm, ⟨50, _⟩ => ⟨S10000x64, .f32⟩
  | .hbm, ⟨51, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.SageSpec.lean ====
/-
  The function both programs compute, entry by entry.

  A mean-aggregation graph layer followed by a linear layer.  With `mean` the [10000,128] matrix of averaged
  neighbour features (the same host operations build it in both programs, so it is carried here as a parameter),
  the hidden activation of node r at unit k is

      hid r k = max ( Σ_l mean(r,l)·W_l(k,l) + Σ_l x(r,l)·W_r(k,l) + b_l(k) , 0 )

  and the result at (r, c) is  Σ_k hid r k · W_fc(c,k) + b_fc(c).  The weights enter row by row, i.e. through
  their transposes.  The zero of the rectifier is kept as the float word both programs print.
-/
import Idealize.ShloMosaic.Lib.ValueIdx
import Idealize.ShloMosaic.PureOps.Ideal

noncomputable section

open scoped BigOperators

namespace Cert.Sage

open Idealize.ShloMosaic Idealize.ShloMosaic.ValueIdx

/-- The rectifier's zero, as the float word both programs print. -/
abbrev zeroWord : EReal := FloatOps.ofBits (F := Ideal) .f32 0x00000000#32

/-- The hidden activation of node `r` at unit `k`: the two projections added, then the bias, then the rectifier. -/
def hid (mean x : FVec Ideal ⟨2, ![10000, 128]⟩ .f32) (Wl Wr : FVec Ideal ⟨2, ![128, 128]⟩ .f32)
    (bl : FVec Ideal ⟨1, ![128]⟩ .f32) (r : Fin 10000) (k : Fin 128) : EReal :=
  max (((∑ l : Fin 128, mean (ix2 r l) * Wl (ix2 k l)) + (∑ l : Fin 128, x (ix2 r l) * Wr (ix2 k l))) + bl (ix1 k))
    zeroWord

/-- The result at node `r`, class `c`. -/
def outAt (mean x : FVec Ideal ⟨2, ![10000, 128]⟩ .f32) (Wl Wr : FVec Ideal ⟨2, ![128, 128]⟩ .f32)
    (bl : FVec Ideal ⟨1, ![128]⟩ .f32) (Wfc : FVec Ideal ⟨2, ![64, 128]⟩ .f32) (bfc : FVec Ideal ⟨1, ![64]⟩ .f32)
    (r : Fin 10000) (c : Fin 64) : EReal :=
  (∑ k : Fin 128, hid mean x Wl Wr bl r k * Wfc (ix2 c k)) + bfc (ix1 c)

/-- The whole result array. -/
def out (mean x : FVec Ideal ⟨2, ![10000, 128]⟩ .f32) (Wl Wr : FVec Ideal ⟨2, ![128, 128]⟩ .f32)
    (bl : FVec Ideal ⟨1, ![128]⟩ .f32) (Wfc : FVec Ideal ⟨2, ![64, 128]⟩ .f32) (bfc : FVec Ideal ⟨1, ![64]⟩ .f32) :
    FVec Ideal ⟨2, ![10000, 64]⟩ .f32 :=
  fun i => outAt mean x Wl Wr bl Wfc bfc (i 0) (i 1)

theorem out_ix2 (mean x : FVec Ideal ⟨2, ![10000, 128]⟩ .f32) (Wl Wr : FVec Ideal ⟨2, ![128, 128]⟩ .f32)
    (bl : FVec Ideal ⟨1, ![128]⟩ .f32) (Wfc : FVec Ideal ⟨2, ![64, 128]⟩ .f32) (bfc : FVec Ideal ⟨1, ![64]⟩ .f32)
    (r : Fin 10000) (c : Fin 64) :
    out mean x Wl Wr bl Wfc bfc (ix2 r c) = outAt mean x Wl Wr bl Wfc bfc r c := rfl

end Cert.Sage

end
-- ==== Proof.KernelPayload.lean ====
/-
  What one grid point's body stores, entry by entry.

  The body takes a [1000,128] block of `mean` and of `x`, the three transposed weight matrices and the two bias
  rows, and stores  relu(mean·Wl + x·Wr + bl)·Wfc + bfc.  At the ideal values the format changes are the identity
  and each matrix product into a zero accumulator is the textbook sum, so entry (p, q) of the stored block is
      Σ_k max(Σ_l mean(p,l)·Wl(l,k) + Σ_l x(p,l)·Wr(l,k) + bl(0,k), 0) · Wfc(k,q) + bfc(0,q).
-/
import proofs.«121248_j32478542692724_1_alg».proof.Proof.Gen.KernelIdeal.Skeleton
import proofs.«121248_j32478542692724_1_alg».proof.Proof.LibPlainDot
import proofs.«121248_j32478542692724_1_alg».proof.Proof.SageSpec
import Idealize.ShloMosaic.Lib.Pipeline.Value
import Idealize.ShloMosaic.Lib.ValueLayout

noncomputable section

open scoped BigOperators

namespace Cert.Sage.Payload

open Idealize.ShloMosaic Idealize.ShloMosaic.ValueIdx Cert.KernelIdeal Cert.KernelIdeal.Gen

/-- The two products' dimension numbers are the plain rows-by-columns ones. -/
theorem dot128_eq : dot_S1000x128_S128x128_S1000x128_1_0_0_1_n_n = DotDims.plain 1000 128 128 := rfl
theorem dot64_eq : dot_S1000x128_S128x64_S1000x64_1_0_0_1_n_n = DotDims.plain 1000 128 64 := rfl

/-- A [1000,128] by [128,128] product into the zero accumulator, at entry (p, k). -/
theorem mm128 {φ₁ φ₂ : FTy} (a : FVec Ideal S1000x128 φ₁) (b : FVec Ideal S128x128 φ₂) (p : Fin 1000) (k : Fin 128) :
    matmul dot_S1000x128_S128x128_S1000x128_1_0_0_1_n_n none a b (constant S1000x128 .f32 0x00000000#32) (ix2 p k)
      = ∑ l : Fin 128, a (ix2 p l) * b (ix2 l k) := by
  rw [dot128_eq]
  exact Cert.LibPlainDot.matmul_zero_apply none a b p k

/-- A [1000,128] by [128,64] product into the zero accumulator, at entry (p, q). -/
theorem mm64 {φ₁ φ₂ : FTy} (a : FVec Ideal S1000x128 φ₁) (b : FVec Ideal S128x64 φ₂) (p : Fin 1000) (q : Fin 64) :
    matmul dot_S1000x128_S128x64_S1000x64_1_0_0_1_n_n none a b (constant S1000x64 .f32 0x00000000#32) (ix2 p q)
      = ∑ k : Fin 128, a (ix2 p k) * b (ix2 k q) := by
  rw [dot64_eq]
  exact Cert.LibPlainDot.matmul_zero_apply none a b p q

/-- The stored block at entry (p, q). -/
theorem pay_apply (v0 v3 : Vec Ideal S1000x128 .f32) (v5 v8 : Vec Ideal S128x128 .f32) (v11 : Vec Ideal S128x64 .f32)
    (v17 : Vec Ideal S1x128 .f32) (v25 : Vec Ideal S1x64 .f32) (p : Fin 1000) (q : Fin 64) :
    k0_pay1 v0 v3 v5 v8 v11 v17 v25 (ix2 p q)
      = (∑ k : Fin 128,
          max (((∑ l : Fin 128, v0 (ix2 p l) * v5 (ix2 l k)) + (∑ l : Fin 128, v3 (ix2 p l) * v8 (ix2 l k)))
                + v17 (ix2 (0 : Fin 1) k)) Cert.Sage.zeroWord
            * v11 (ix2 k q))
        + v25 (ix2 (0 : Fin 1) q) := by
  unfold k0_pay1
  simp only [shapeCast_self]
  refine (congrArg₂ (· + ·) (mm64 _ _ p q) (broadcastTo_1b_ab_apply v25 _ p q)).trans ?_
  refine congrArg (· + _) (Finset.sum_congr rfl fun k _ => ?_)
  refine congrArg (· * _) ?_
  refine (congrArg (max · _) ?_)
  exact congrArg₂ (· + ·) (congrArg₂ (· + ·) (mm128 _ _ p k) (mm128 _ _ p k)) (broadcastTo_1b_ab_apply v17 _ p k)

/-- One grid point against the specification.  If the two row blocks are rows 1000·t … 1000·t+999 of `mean` and of `x`,
    the three weight blocks are the transposes of the weights and the two bias rows are the biases, then entry `j` of the
    stored block is the specification at row 1000·t + j₀, column j₁. -/
theorem point_value (t : ℕ)
    (mean x : FVec Ideal ⟨2, ![10000, 128]⟩ .f32) (Wl Wr : FVec Ideal ⟨2, ![128, 128]⟩ .f32)
    (bl : FVec Ideal ⟨1, ![128]⟩ .f32) (Wfc : FVec Ideal ⟨2, ![64, 128]⟩ .f32) (bfc : FVec Ideal ⟨1, ![64]⟩ .f32)
    (b0 b1 : Vec Ideal S1000x128 .f32) (b2 b4 : Vec Ideal S128x128 .f32) (b3 : Vec Ideal S1x128 .f32)
    (b5 : Vec Ideal S128x64 .f32) (b6 : Vec Ideal S1x64 .f32)
    (h0 : ∀ (p : Fin 1000) (l : Fin 128) (r : Fin 10000), r.val = 1000 * t + p.val → b0 (ix2 p l) = mean (ix2 r l))
    (h1 : ∀ (p : Fin 1000) (l : Fin 128) (r : Fin 10000), r.val = 1000 * t + p.val → b1 (ix2 p l) = x (ix2 r l))
    (h2 : ∀ l k : Fin 128, b2 (ix2 l k) = Wl (ix2 k l))
    (h4 : ∀ l k : Fin 128, b4 (ix2 l k) = Wr (ix2 k l))
    (h3 : ∀ k : Fin 128, b3 (ix2 (0 : Fin 1) k) = bl (ix1 k))
    (h5 : ∀ (k : Fin 128) (q : Fin 64), b5 (ix2 k q) = Wfc (ix2 q k))
    (h6 : ∀ q : Fin 64, b6 (ix2 (0 : Fin 1) q) = bfc (ix1 q))
    (j : S1000x64.Idx) (i : (⟨2, ![10000, 64]⟩ : Shape).Idx)
    (hi0 : (i 0).val = 1000 * t + (j 0).val) (hi1 : (i 1).val = (j 1).val) :
    k0_pay1 b0 b1 b2 b4 b5 b3 b6 j = Cert.Sage.out mean x Wl Wr bl Wfc bfc i := by
  obtain ⟨p, q, rfl⟩ : ∃ (p : Fin 1000) (q : Fin 64), j = ix2 p q := ⟨j 0, j 1, eq_ix2 j⟩
  obtain ⟨r, c, rfl⟩ : ∃ (r : Fin 10000) (c : Fin 64), i = ix2 r c := ⟨i 0, i 1, eq_ix2 i⟩
  have hr : r.val = 1000 * t + p.val := hi0
  obtain rfl : c = q := Fin.ext hi1
  have h0' : ∀ l : Fin 128, b0 (ix2 p l) = mean (ix2 r l) := fun l => h0 p l r hr
  have h1' : ∀ l : Fin 128, b1 (ix2 p l) = x (ix2 r l) := fun l => h1 p l r hr
  rw [pay_apply, Cert.Sage.out_ix2]
  unfold Cert.Sage.outAt Cert.Sage.hid
  simp only [h0', h1', h2, h3, h4, h5, h6]

end Cert.Sage.Payload

end
-- ==== Proof.KernelValue.lean ====
/-
  From blocks to the array: what the kernel's result array holds after the run.

  The grid has ten points; point t takes rows 1000·t … 1000·t + 999 of `mean` (built by the host operations before
  the call) and of `x`, and the whole of the transposed weights and of the bias rows, and writes back rows
  1000·t … 1000·t + 999 of the result.  Each written block is the specification restricted to those rows, and the ten
  blocks cover the array, so the array ends holding the specification.
-/
import proofs.«121248_j32478542692724_1_alg».proof.Proof.Gen.KernelIdeal.Value
import proofs.«121248_j32478542692724_1_alg».proof.Proof.KernelPayload
import proofs.«121248_j32478542692724_1_alg».proof.Proof.SageSpec
import Idealize.ShloMosaic.Lib.Pipeline.Value
import Idealize.ShloMosaic.Lib.ValueLayout
import Idealize.ShloMosaic.Lib.StableHlo.Run

noncomputable section

open scoped BigOperators

namespace Cert.Sage.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds: the host operations before the call -/

/-- The transposed first weight. -/
theorem v23_eq (c : Dev nD) : (V m c main_v23 : S128x128.Idx → EReal)
    = transpose S128x128 [1, 0] (m ((c : Thread nD τ).loc main_arg2)) transposes_S128x128_S128x128_1_0 := by
  dsimp only [V, hostOps0]; after_results

/-- The transposed second weight. -/
theorem v24_eq (c : Dev nD) : (V m c main_v24 : S128x128.Idx → EReal)
    = transpose S128x128 [1, 0] (m ((c : Thread nD τ).loc main_arg4)) transposes_S128x128_S128x128_1_0 := by
  dsimp only [V, hostOps0]; after_results

/-- The transposed output weight. -/
theorem v25_eq (c : Dev nD) : (V m c main_v25 : S128x64.Idx → EReal)
    = transpose S128x64 [1, 0] (m ((c : Thread nD τ).loc main_arg5)) transposes_S64x128_S128x64_1_0 := by
  dsimp only [V, hostOps0]; after_results

/-- The first bias as a row. -/
theorem v26_eq (c : Dev nD) : (V m c main_v26 : S1x128.Idx → EReal)
    = shapeCast S1x128 (m ((c : Thread nD τ).loc main_arg3)) shapeCasts_S128_S1x128 := by
  dsimp only [V, hostOps0]; after_results; rfl

/-- The output bias as a row. -/
theorem v27_eq (c : Dev nD) : (V m c main_v27 : S1x64.Idx → EReal)
    = shapeCast S1x64 (m ((c : Thread nD τ).loc main_arg6)) shapeCasts_S64_S1x64 := by
  dsimp only [V, hostOps0]; after_results; rfl

/-! ## The index maps, decided over the ten points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block, read where the arrays say -/

theorem blk0 (c : Dev nD) (t : Fin cfg0.N) (p : Fin 1000) (l : Fin 128) (r : Fin 10000)
    (hr : r.val = 1000 * t.val + p.val) :
    (iblk m c 0 t : Vec Ideal S1000x128 .f32) (ix2 p l) = (V m c main_v22 : S10000x128.Idx → EReal) (ix2 r l) := by
  obtain ⟨e0, e1, -⟩ := idx_facts t
  show (V m c main_v22 : S10000x128.Idx → EReal) (((cfg0.win 0).blk t).view.emb (ix2 p l)) = _
  refine congrArg (V m c main_v22 : S10000x128.Idx → EReal) (funext fun a => Fin.ext ?_)
  match a with
  | ⟨0, _⟩ => show win0_0.index t (0 : Fin 2) * 1000 + 1 * p.val = r.val; omega
  | ⟨1, _⟩ => show win0_0.index t (1 : Fin 2) * 128 + 1 * l.val = l.val; omega

theorem blk1 (c : Dev nD) (t : Fin cfg0.N) (p : Fin 1000) (l : Fin 128) (r : Fin 10000)
    (hr : r.val = 1000 * t.val + p.val) :
    (iblk m c 1 t : Vec Ideal S1000x128 .f32) (ix2 p l)
      = (m ((c : Thread nD τ).loc main_arg0) : S10000x128.Idx → EReal) (ix2 r l) := by
  obtain ⟨-, -, e0, e1, -⟩ := idx_facts t
  show (V m c main_arg0 : S10000x128.Idx → EReal) (((cfg0.win 1).blk t).view.emb (ix2 p l)) = _
  rw [V_main_arg0]
  refine congrArg (m ((c : Thread nD τ).loc main_arg0) : S10000x128.Idx → EReal) (funext fun a => Fin.ext ?_)
  match a with
  | ⟨0, _⟩ => show win0_1.index t (0 : Fin 2) * 1000 + 1 * p.val = r.val; omega
  | ⟨1, _⟩ => show win0_1.index t (1 : Fin 2) * 128 + 1 * l.val = l.val; omega

theorem blk2 (c : Dev nD) (t : Fin cfg0.N) (l k : Fin 128) :
    (iblk m c 2 t : Vec Ideal S128x128 .f32) (ix2 l k)
      = (m ((c : Thread nD τ).loc main_arg2) : S128x128.Idx → EReal) (ix2 k l) := by
  obtain ⟨-, -, -, -, e0, e1, -⟩ := idx_facts t
  show (V m c main_v23 : S128x128.Idx → EReal) (((cfg0.win 2).blk t).view.emb (ix2 l k)) = _
  rw [v23_eq]
  refine (congrArg _ (funext fun a => Fin.ext ?_)).trans (transpose_ix2_apply _ _ l k)
  match a with
  | ⟨0, _⟩ => show win0_2.index t (0 : Fin 2) * 128 + 1 * l.val = l.val; omega
  | ⟨1, _⟩ => show win0_2.index t (1 : Fin 2) * 128 + 1 * k.val = k.val; omega

theorem blk4 (c : Dev nD) (t : Fin cfg0.N) (l k : Fin 128) :
    (iblk m c 4 t : Vec Ideal S128x128 .f32) (ix2 l k)
      = (m ((c : Thread nD τ).loc main_arg4) : S128x128.Idx → EReal) (ix2 k l) := by
  obtain ⟨-, -, -, -, -, -, -, -, e0, e1, -⟩ := idx_facts t
  show (V m c main_v24 : S128x128.Idx → EReal) (((cfg0.win 4).blk t).view.emb (ix2 l k)) = _
  rw [v24_eq]
  refine (congrArg _ (funext fun a => Fin.ext ?_)).trans (transpose_ix2_apply _ _ l k)
  match a with
  | ⟨0, _⟩ => show win0_4.index t (0 : Fin 2) * 128 + 1 * l.val = l.val; omega
  | ⟨1, _⟩ => show win0_4.index t (1 : Fin 2) * 128 + 1 * k.val = k.val; omega

theorem blk5 (c : Dev nD) (t : Fin cfg0.N) (k : Fin 128) (q : Fin 64) :
    (iblk m c 5 t : Vec Ideal S128x64 .f32) (ix2 k q)
      = (m ((c : Thread nD τ).loc main_arg5) : S64x128.Idx → EReal) (ix2 q k) := by
  obtain ⟨-, -, -, -, -, -, -, -, -, -, e0, e1, -⟩ := idx_facts t
  show (V m c main_v25 : S128x64.Idx → EReal) (((cfg0.win 5).blk t).view.emb (ix2 k q)) = _
  rw [v25_eq]
  refine (congrArg _ (funext fun a => Fin.ext ?_)).trans (transpose_ix2_apply _ _ k q)
  match a with
  | ⟨0, _⟩ => show win0_5.index t (0 : Fin 2) * 128 + 1 * k.val = k.val; omega
  | ⟨1, _⟩ => show win0_5.index t (1 : Fin 2) * 64 + 1 * q.val = q.val; omega

theorem blk3 (c : Dev nD) (t : Fin cfg0.N) (k : Fin 128) :
    (iblk m c 3 t : Vec Ideal S1x128 .f32) (ix2 (0 : Fin 1) k)
      = (m ((c : Thread nD τ).loc main_arg3) : S128.Idx → EReal) (ix1 k) := by
  obtain ⟨-, -, -, -, -, -, e0, e1, -⟩ := idx_facts t
  show (V m c main_v26 : S1x128.Idx → EReal) (((cfg0.win 3).blk t).view.emb (ix2 (0 : Fin 1) k)) = _
  rw [v26_eq]
  refine (congrArg _ (funext fun a => Fin.ext ?_)).trans (shapeCast_a_1a_apply _ _ (0 : Fin 1) k)
  match a with
  | ⟨0, _⟩ => show win0_3.index t (0 : Fin 2) * 1 + 1 * 0 = 0; omega
  | ⟨1, _⟩ => show win0_3.index t (1 : Fin 2) * 128 + 1 * k.val = k.val; omega

theorem blk6 (c : Dev nD) (t : Fin cfg0.N) (q : Fin 64) :
    (iblk m c 6 t : Vec Ideal S1x64 .f32) (ix2 (0 : Fin 1) q)
      = (m ((c : Thread nD τ).loc main_arg6) : S64.Idx → EReal) (ix1 q) := by
  obtain ⟨-, -, -, -, -, -, -, -, -, -, -, -, e0, e1, -⟩ := idx_facts t
  show (V m c main_v27 : S1x64.Idx → EReal) (((cfg0.win 6).blk t).view.emb (ix2 (0 : Fin 1) q)) = _
  rw [v27_eq]
  refine (congrArg _ (funext fun a => Fin.ext ?_)).trans (shapeCast_a_1a_apply _ _ (0 : Fin 1) q)
  match a with
  | ⟨0, _⟩ => show win0_6.index t (0 : Fin 2) * 1 + 1 * 0 = 0; omega
  | ⟨1, _⟩ => show win0_6.index t (1 : Fin 2) * 64 + 1 * q.val = q.val; omega

/-! ## What the array ends holding -/

/-- The specification of the arrays the region finds: `mean` as the host operations left it, the arguments. -/
abbrev result (c : Dev nD) : S10000x64.Idx → EReal :=
  Cert.Sage.out (V m c main_v22 : S10000x128.Idx → EReal) (m ((c : Thread nD τ).loc main_arg0))
    (m ((c : Thread nD τ).loc main_arg2)) (m ((c : Thread nD τ).loc main_arg4)) (m ((c : Thread nD τ).loc main_arg3))
    (m ((c : Thread nD τ).loc main_arg5)) (m ((c : Thread nD τ).loc main_arg6))

/-- What point `t` writes back is block `t` of the specification. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz]
  simp only [View.ld_unit_zero (S := S1000x128) hz, View.ld_unit_zero (S := S128x128) hz,
    View.ld_unit_zero (S := S128x64) hz, View.ld_unit_zero (S := S1x128) hz, View.ld_unit_zero (S := S1x64) hz]
  obtain ⟨-, -, -, -, -, -, -, -, -, -, -, -, -, -, e0, e1⟩ := idx_facts t
  funext j
  show k0_pay1 (iblk m c 0 t) (iblk m c 1 t) (iblk m c 2 t) (iblk m c 4 t) (iblk m c 5 t) (iblk m c 3 t) (iblk m c 6 t) j
    = result m c (((cfg0.win 7).blk t).view.emb j)
  refine Cert.Sage.Payload.point_value t.val (V m c main_v22 : S10000x128.Idx → EReal)
    (m ((c : Thread nD τ).loc main_arg0)) (m ((c : Thread nD τ).loc main_arg2)) (m ((c : Thread nD τ).loc main_arg4))
    (m ((c : Thread nD τ).loc main_arg3)) (m ((c : Thread nD τ).loc main_arg5)) (m ((c : Thread nD τ).loc main_arg6))
    (iblk m c 0 t) (iblk m c 1 t) (iblk m c 2 t) (iblk m c 4 t) (iblk m c 3 t) (iblk m c 5 t) (iblk m c 6 t)
    (blk0 m c t) (blk1 m c t) (blk2 m c t) (blk4 m c t) (blk3 m c t) (blk5 m c t) (blk6 m c t) j
    (((cfg0.win 7).blk t).view.emb j) ?_ ?_
  · show win0_7.index t (0 : Fin 2) * 1000 + 1 * (j 0).val = 1000 * t.val + (j 0).val; omega
  · show win0_7.index t (1 : Fin 2) * 64 + 1 * (j 1).val = (j 1).val; omega

/-- An index of the array is in point `t`'s block iff each coordinate is in the block's range on its axis. -/
theorem mem_blk (t : Fin cfg0.N) (i : S10000x64.Idx) :
    i ∈ ((cfg0.win 7).blk t).view.set ↔ ∀ a : Fin 2, win0_7.index t a * S1000x64.size a ≤ (i a).val
      ∧ (i a).val < win0_7.index t a * S1000x64.size a + S1000x64.size a := by
  show i ∈ ((View.whole main_v28).slice (win0_7.rect t)).set ↔ _
  rw [View.set_slice_whole, Rect.mem_set_unit]
  exact Iff.rfl

/-- Every row of the array is in the block of the point that is its thousand. -/
theorem cover (i : S10000x64.Idx) :
    ∃ t : Fin cfg0.N, (cfg0.win 7).flush t = true ∧ i ∈ ((cfg0.win 7).blk t).view.set := by
  have hi0 : (i 0).val < 10000 := (i 0).isLt
  have hi1 : (i 1).val < 64 := (i 1).isLt
  let t : Fin cfg0.N := ⟨(i 0).val / 1000, by rw [show cfg0.N = 10 from N_0]; omega⟩
  have ht : t.val = (i 0).val / 1000 := rfl
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 1000 ≤ (i 0).val ∧ (i 0).val < win0_7.index t (0 : Fin 2) * 1000 + 1000; omega
  | ⟨1, _⟩ => show win0_7.index t (1 : Fin 2) * 64 ≤ (i 1).val ∧ (i 1).val < win0_7.index t (1 : Fin 2) * 64 + 64; omega

/-- The result array after the run is the specification. -/
theorem final (c : Dev nD) : (dats m 0 c).arrAt 7 cfg0.N = result m c :=
  (dats m 0 c).arrAt_eq_of_cover 7 (result m c) (fun t _ => flushed_eq m c t) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.Sage.KernelValue

end
-- ==== Proof.RefValue.lean ====
/-
  The reference's result, entry by entry, is the specification.

  The reference computes  relu((mean·W_lᵀ + b_l) + x·W_rᵀ)·W_fcᵀ + b_fc  with host matrix products.  Read at
  (r, c) through its transposes and broadcasts this is the specification's double sum, except that the bias is
  added before the second projection rather than after it: commutativity and associativity of addition on the
  extended reals (which hold at the infinities too) move it.
-/
import proofs.«121248_j32478542692724_1_alg».proof.Proof.Gen.ReferenceIdeal.Read
import proofs.«121248_j32478542692724_1_alg».proof.Proof.SageSpec

noncomputable section

open scoped BigOperators

namespace Cert.Sage.RefValue

open Idealize.ShloMosaic Idealize.ShloMosaic.ValueIdx Cert.ReferenceIdeal Cert.ReferenceIdeal.Read

/-! The index maps of the reference's layout operations and products, at coordinates. -/

theorem e33l (r : Fin 10000) (c : Fin 64) (k : Fin 128) : lidx_main_v33 (ix2 r c) k = ix2 r k :=
  funext fun a => Fin.ext (by match a with | ⟨0, _⟩ => rfl | ⟨1, _⟩ => rfl)
theorem e33r (r : Fin 10000) (c : Fin 64) (k : Fin 128) : ridx_main_v33 (ix2 r c) k = ix2 k c :=
  funext fun a => Fin.ext (by match a with | ⟨0, _⟩ => rfl | ⟨1, _⟩ => rfl)
theorem e32 (k : Fin 128) (c : Fin 64) : idx_main_v32 (ix2 k c) = ix2 c k :=
  funext fun a => Fin.ext (by match a with | ⟨0, _⟩ => rfl | ⟨1, _⟩ => rfl)
theorem e24l (r : Fin 10000) (k l : Fin 128) : lidx_main_v24 (ix2 r k) l = ix2 r l :=
  funext fun a => Fin.ext (by match a with | ⟨0, _⟩ => rfl | ⟨1, _⟩ => rfl)
theorem e24r (r : Fin 10000) (k l : Fin 128) : ridx_main_v24 (ix2 r k) l = ix2 l k :=
  funext fun a => Fin.ext (by match a with | ⟨0, _⟩ => rfl | ⟨1, _⟩ => rfl)
theorem e23 (l k : Fin 128) : idx_main_v23 (ix2 l k) = ix2 k l :=
  funext fun a => Fin.ext (by match a with | ⟨0, _⟩ => rfl | ⟨1, _⟩ => rfl)
theorem e29l (r : Fin 10000) (k l : Fin 128) : lidx_main_v29 (ix2 r k) l = ix2 r l :=
  funext fun a => Fin.ext (by match a with | ⟨0, _⟩ => rfl | ⟨1, _⟩ => rfl)
theorem e29r (r : Fin 10000) (k l : Fin 128) : ridx_main_v29 (ix2 r k) l = ix2 l k :=
  funext fun a => Fin.ext (by match a with | ⟨0, _⟩ => rfl | ⟨1, _⟩ => rfl)
theorem e28 (l k : Fin 128) : idx_main_v28 (ix2 l k) = ix2 k l :=
  funext fun a => Fin.ext (by match a with | ⟨0, _⟩ => rfl | ⟨1, _⟩ => rfl)
theorem e26 (r : Fin 10000) (k : Fin 128) : idx_main_v25 (idx_main_v26 (ix2 r k)) = ix1 k :=
  funext fun a => Fin.ext (by match a with | ⟨0, _⟩ => rfl)
theorem e35 (r : Fin 10000) (c : Fin 64) : idx_main_v34 (idx_main_v35 (ix2 r c)) = ix1 c :=
  funext fun a => Fin.ext (by match a with | ⟨0, _⟩ => rfl)

/-- The reference's hidden activation at (r, k) is the specification's. -/
theorem hidden_eq (x0 : FVec Ideal S10000x128 .f32) (x1 : (⟨S2x640000, .i32⟩ : BufTy).Contents (Elt Ideal))
    (x2 : FVec Ideal S128x128 .f32) (x3 : FVec Ideal S128 .f32) (x4 : FVec Ideal S128x128 .f32)
    (r : Fin 10000) (k : Fin 128) :
    val_main_v31 (F := Ideal) x0 x1 x2 x3 x4 (ix2 r k)
      = Cert.Sage.hid (val_main_v22 (F := Ideal) x0 x1) x0 x2 x4 x3 r k := by
  rw [val_main_v31_apply, val_main_v30_apply, val_main_v27_apply, val_main_v24_apply, val_main_v29_apply,
    val_main_v26_apply, val_main_v25_apply, val_main_call0_v0_apply, val_main_call0_cst_apply]
  simp only [val_main_v23_apply, val_main_v28_apply, e24l, e24r, e23, e29l, e29r, e28, e26,
    Ideal.addf_def, Ideal.maximumf_def]
  unfold Cert.Sage.hid
  rw [add_right_comm]

/-- The reference's result array is the specification of its own `mean` stage and the arguments. -/
theorem ref_eq_out (x0 : FVec Ideal S10000x128 .f32) (x1 : (⟨S2x640000, .i32⟩ : BufTy).Contents (Elt Ideal))
    (x2 : FVec Ideal S128x128 .f32) (x3 : FVec Ideal S128 .f32) (x4 : FVec Ideal S128x128 .f32)
    (x5 : FVec Ideal S64x128 .f32) (x6 : FVec Ideal S64 .f32) :
    val_main_v36 (F := Ideal) x0 x1 x2 x3 x4 x5 x6
      = Cert.Sage.out (val_main_v22 (F := Ideal) x0 x1) x0 x2 x4 x3 x5 x6 := by
  funext i
  obtain ⟨r, c, rfl⟩ : ∃ (r : Fin 10000) (c : Fin 64), i = ix2 r c := ⟨i 0, i 1, eq_ix2 i⟩
  rw [Cert.Sage.out_ix2]
  unfold Cert.Sage.outAt
  rw [val_main_v36_apply, val_main_v33_apply, val_main_v35_apply, val_main_v34_apply]
  simp only [val_main_v32_apply, e33l, e33r, e32, e35, hidden_eq, Ideal.addf_def]

end Cert.Sage.RefValue

end
-- ==== Proof.MeanStage.lean ====
/-
  The averaged neighbour features are one array in both programs.

  Both programs build `mean` with the same host operations of the node features and the edge list: gather the source
  rows, add them into the destination rows, count the edges into each destination, and divide by the count clamped
  below at one.  So the array the kernel's region finds is, term for term, the reference's own stage.
-/
import proofs.«121248_j32478542692724_1_alg».proof.Proof.Gen.KernelIdeal.Frame
import proofs.«121248_j32478542692724_1_alg».proof.Proof.Gen.ReferenceIdeal.Read
import Idealize.ShloMosaic.Lib.StableHlo.Run

noncomputable section

namespace Cert.Sage.MeanStage

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 2000000 in
/-- The array the region finds as `mean` is the reference's `mean` stage of the node features and the edge list. -/
theorem mean_eq (c : Dev nD) : (V m c main_v22 : S10000x128.Idx → EReal)
    = Cert.ReferenceIdeal.Read.val_main_v22 (F := Ideal) (m ((c : Thread nD τ).loc main_arg0))
        (m ((c : Thread nD τ).loc main_arg1)) := by
  dsimp only [V, hostOps0]
  after_results_simp
  rfl

end Cert.Sage.MeanStage

end
-- ==== Proof.SageClaims.lean ====
/-
  The claims.

  Frames: the kernel's two programs by their generated frame runs, the reference's by its generated run with the
  result dropped.  The idealization rewrote nothing, so there is nothing to preserve.  Equal results: the kernel's
  result array ends at the specification of the arrays its region finds (blocks to array), the reference's at the
  specification of its own `mean` stage (read entry by entry); the two `mean` arrays are one term of the node features
  and the edge list, and the arguments agree.
-/
import proofs.«121248_j32478542692724_1_alg».proof.Defs
import proofs.«121248_j32478542692724_1_alg».proof.Proof.Gen.Pre_finite_inputs
import proofs.«121248_j32478542692724_1_alg».proof.Proof.Gen.Kernel.Frame
import proofs.«121248_j32478542692724_1_alg».proof.Proof.Gen.KernelIdeal.Frame
import proofs.«121248_j32478542692724_1_alg».proof.Proof.Gen.KernelIdeal.Value
import proofs.«121248_j32478542692724_1_alg».proof.Proof.Gen.ReferenceIdeal.Run
import proofs.«121248_j32478542692724_1_alg».proof.Proof.Gen.ReferenceIdeal.Read
import proofs.«121248_j32478542692724_1_alg».proof.Proof.KernelValue
import proofs.«121248_j32478542692724_1_alg».proof.Proof.RefValue
import proofs.«121248_j32478542692724_1_alg».proof.Proof.MeanStage

noncomputable section

open Idealize.ShloMosaic Idealize.ShloMosaic.TcCoe Idealize.SL.Sem

namespace Cert.Proof.SageClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification of one `mean` array and the same arguments. -/
theorem algebraic : Cert.algebraic_KernelIdeal_ReferenceIdeal := by
  intro m ρ m' ρ' _ hagree
  refine ⟨fun c => Cert.Sage.KernelValue.result m c, Cert.Sage.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  refine (Cert.ReferenceIdeal.Read.val_main_v36_eq (F := Ideal) _ _ _ _ _ _ _).trans ?_
  rw [Cert.Sage.RefValue.ref_eq_out, a0, a1, a2, a3, a4, a5, a6]
  show _ = Cert.Sage.out _ _ _ _ _ _ _
  rw [Cert.Sage.MeanStage.mean_eq]

end Cert.Proof.SageClaims

end
-- ==== Proof.lean ====
/- The certificate of a mean-aggregation graph layer followed by a linear layer, fused into one kernel over ten row blocks,
   against its plain reference: both compute, at node r and class c,
       Σ_k max(Σ_l mean(r,l)·W_l(k,l) + Σ_l x(r,l)·W_r(k,l) + b_l(k), 0) · W_fc(c,k) + b_fc(c)
   on the extended reals, the reference adding the bias before the second projection (addition commutes and associates
   there, at the infinities too).  Proof/SageSpec.lean states that function; Proof/KernelPayload.lean and
   Proof/KernelValue.lean show the kernel's array ends holding it; Proof/RefValue.lean that the reference's does;
   Proof/MeanStage.lean that the two programs' `mean` arrays are one; Proof/SageClaims.lean assembles the claims. -/
import proofs.«121248_j32478542692724_1_alg».proof.Defs
import proofs.«121248_j32478542692724_1_alg».proof.Proof.Gen.Kernel
import proofs.«121248_j32478542692724_1_alg».proof.Proof.Gen.Kernel.Skeleton
import proofs.«121248_j32478542692724_1_alg».proof.Proof.Gen.Kernel.Launch
import proofs.«121248_j32478542692724_1_alg».proof.Proof.Gen.Kernel.Points
import proofs.«121248_j32478542692724_1_alg».proof.Proof.Gen.Kernel.Frame
import proofs.«121248_j32478542692724_1_alg».proof.Proof.Gen.KernelIdeal
import proofs.«121248_j32478542692724_1_alg».proof.Proof.Gen.KernelIdeal.Skeleton
import proofs.«121248_j32478542692724_1_alg».proof.Proof.Gen.KernelIdeal.Launch
import proofs.«121248_j32478542692724_1_alg».proof.Proof.Gen.KernelIdeal.Points
import proofs.«121248_j32478542692724_1_alg».proof.Proof.Gen.KernelIdeal.Frame
import proofs.«121248_j32478542692724_1_alg».proof.Proof.Gen.ReferenceIdeal
import proofs.«121248_j32478542692724_1_alg».proof.Proof.Gen.Pre_finite_inputs
import proofs.«121248_j32478542692724_1_alg».proof.Proof.Gen.KernelIdeal.Value
import proofs.«121248_j32478542692724_1_alg».proof.Proof.Gen.ReferenceIdeal.Run
import proofs.«121248_j32478542692724_1_alg».proof.Proof.Gen.ReferenceIdeal.Read
import proofs.«121248_j32478542692724_1_alg».proof.Proof.SageClaims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Cert.Proof.SageClaims.frame_k, Cert.Proof.SageClaims.frame_ki, Cert.Proof.SageClaims.frame_ri,
  Cert.Proof.SageClaims.preserves, Cert.Proof.SageClaims.algebraic⟩

end Cert.Proof

end
